-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S512x512 : Shape := ⟨2, ![512, 512]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S131072x512 .f32) (main_arg1 : FVec F S512x512 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S131072x512 : Shape := ⟨2, ![131072, 512]⟩
abbrev S512x512 : Shape := ⟨2, ![512, 512]⟩
abbrev S_ : Shape := ⟨0, ![]⟩
abbrev S512 : Shape := ⟨1, ![512]⟩
abbrev S1x512 : Shape := ⟨2, ![1, 512]⟩
abbrev S2048x512 : Shape := ⟨2, ![2048, 512]⟩
abbrev S2048 : Shape := ⟨1, ![2048]⟩
abbrev S2048x1 : Shape := ⟨2, ![2048, 1]⟩

abbrev nBuf : Space → Nat
  | .hbm => 8
  | .vmem => 6
  | .smem => 0
  | _ => 0

abbrev bufTy : (tb : Table) → Fin (tcTables nBuf tb) → BufTy
  | .hbm, ⟨0, _⟩ => ⟨S131072x512, .f32⟩
  | .hbm, ⟨1, _⟩ => ⟨S512x512, .f32⟩
  | .hbm, ⟨2, _⟩ => ⟨S512x512, .f32⟩
  | .hbm, ⟨3, _⟩ => ⟨S_, .f32⟩
  | .hbm, ⟨4, _⟩ => ⟨S512, .f32⟩
  | .hbm, ⟨5, _⟩ => ⟨S1x512, .f32⟩
  | .hbm, ⟨6, _⟩ => ⟨S512x512, .bf16⟩
  | .hbm, ⟨7, _⟩ => ⟨S131072x512, .f32⟩
  | .local _ .vmem, ⟨0, _⟩ => ⟨S2048x512, .f32⟩
  | .local _ .vmem, ⟨1, _⟩ => ⟨S2048x512, .f32⟩
  | .local _ .vmem, ⟨2, _⟩ => ⟨S512x512, .bf16⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S512x512_S512_d1 : S512x512.ReducesTo [1] S512
  h_S_ : 0 < S_.numel
  bcast_S512_S1x512_1 : S512.BroadcastsInDim S1x512 (![1] : Fin 1 → Fin S1x512.rank)
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S2048x512_S2048 : S2048x512.Reduces [1] S2048
  shapeCasts_S2048_S2048x1 : S2048.ShapeCasts S2048x1
  transposes_S512x512_p1_0_S512x512 : S512x512.Transposes [1, 0] S512x512
  broadcasts_S2048x1_S2048x512 : S2048x1.Broadcasts S2048x512
  broadcasts_S1x512_S2048x512 : S1x512.Broadcasts S2048x512
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S131072x512.size a
  hwx0_3 : ∀ i : grid0.Coords, EltTy.bits .f32 = 32 ∨ (Rect.block (s := S131072x512) S2048x512.size (cc0_transform_3 i) (hinb0_3 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x512 : Shape := ⟨2, ![131072, 512]⟩
abbrev S512x512 : Shape := ⟨2, ![512, 512]⟩
abbrev S_ : Shape := ⟨0, ![]⟩
abbrev S131072 : Shape := ⟨1, ![131072]⟩
abbrev S131072x1 : Shape := ⟨2, ![131072, 1]⟩
abbrev S512 : Shape := ⟨1, ![512]⟩
abbrev S1x512 : Shape := ⟨2, ![1, 512]⟩

abbrev nBuf : Space → Nat
  | .hbm => 39
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S512x512, .f32⟩
  | .hbm, ⟨2, _⟩ => ⟨S131072x512, .f32⟩
  | .hbm, ⟨3, _⟩ => ⟨S_, .f32⟩
  | .hbm, ⟨4, _⟩ => ⟨S131072, .f32⟩
  | .hbm, ⟨5, _⟩ => ⟨S131072x1, .f32⟩
  | .hbm, ⟨6, _⟩ => ⟨S512x512, .f32⟩
  | .hbm, ⟨7, _⟩ => ⟨S_, .f32⟩
  | .hbm, ⟨8, _⟩ => ⟨S512, .f32⟩
  | .hbm, ⟨9, _⟩ => ⟨S1x512, .f32⟩
  | .hbm, ⟨10, _⟩ => ⟨S131072x512, .f32⟩
  | .hbm, ⟨11, _⟩ => ⟨S131072x512, .f32⟩
  | .hbm, ⟨12, _⟩ => ⟨S131072x512, .f32⟩
  | .hbm, ⟨13, _⟩ => ⟨S512x512, .f32⟩
  | .hbm, ⟨14, _⟩ => ⟨S131072x512, .f32⟩
  | .hbm, ⟨15, _⟩ => ⟨S_, .f32⟩
  | .hbm, ⟨16, _⟩ => ⟨S131072x512, .f32⟩
  | .hbm, ⟨17, _⟩ => ⟨S131072x512, .f32⟩
  | .hbm, ⟨18, _⟩ => ⟨S131072x512, .f32⟩
  | .hbm, ⟨19, _⟩ => ⟨S_, .f32⟩
  | .hbm, ⟨20, _⟩ => ⟨S131072x512, .f32⟩
  | .hbm, ⟨21, _⟩ => ⟨S131072x512, .f32⟩
  | .hbm, ⟨22, _⟩ => ⟨S_, .f32⟩
  | .hbm, ⟨23, _⟩ => ⟨S131072x512, .f32⟩
  | .hbm, ⟨24, _⟩ => ⟨S131072x512, .f32⟩
  | .hbm, ⟨25, _⟩ => ⟨S_, .f32⟩
  | .hbm, ⟨26, _⟩ => ⟨S131072x512, .f32⟩
  | .hbm, ⟨27, _⟩ => ⟨S131072x512, .f32⟩
  | .hbm, ⟨28, _⟩ => ⟨S_, .f32⟩
  | .hbm, ⟨29, _⟩ => ⟨S131072x512, .f32⟩
  | .hbm, ⟨30, _⟩ => ⟨S131072x512, .f32⟩
  | .hbm, ⟨31, _⟩ => ⟨S_, .f32⟩
  | .hbm, ⟨32, _⟩ => ⟨S131072x512, .f32⟩
  | .hbm, ⟨33, _⟩ => ⟨S131072x512, .f32⟩
  | .hbm, ⟨34, _⟩ => ⟨S_, .f32⟩
  | .hbm, ⟨35, _⟩ => ⟨S131072, .f32⟩
  | .hbm, ⟨36, _⟩ => ⟨S131072x1, .f32⟩
  | .hbm, ⟨37, _⟩ => ⟨S131072x512, .f32⟩
  | .hbm, ⟨38, _⟩ => ⟨S131072x512, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  reducesTo_S131072x512_S131072_d1 : S131072x512.ReducesTo [1] S131072
  h_S_ : 0 < S_.numel
  bcast_S131072_S131072x1_0 : S131072.BroadcastsInDim S131072x1 (![0] : Fin 1 → Fin S131072x1.rank)
  reducesTo_S512x512_S512_d1 : S512x512.ReducesTo [1] S512
  bcast_S512_S1x512_1 : S512.BroadcastsInDim S1x512 (![1] : Fin 1 → Fin S1x512.rank)
  bcast_S131072x1_S131072x512_0_1 : S131072x1.BroadcastsInDim S131072x512 (![0, 1] : Fin 2 → Fin S131072x512.rank)
  bcast_S1x512_S131072x512_0_1 : S1x512.BroadcastsInDim S131072x512 (![0, 1] : Fin 2 → Fin S131072x512.rank)
  transposes_S512x512_S512x512_1_0 : S512x512.Transposes [1, 0] S512x512
  bcast_S_S131072x512 : S_.BroadcastsInDim S131072x512 (![] : Fin 0 → Fin S131072x512.rank)
  dot_S131072x512_S512x512_S131072x512_1_0_0_1_n_n_wf : DotDims.WF S131072x512 S512x512 S131072x512 [1] [0] [0] [1] [] []

variable [Facts₀]

def dot_S131072x512_S512x512_S131072x512_1_0_0_1_n_n : DotDims S131072x512 S512x512 S131072x512 where
  lhsContracting := [1]
  rhsContracting := [0]
  lhsNonContracting := [0]
  rhsNonContracting := [1]
  lhsBatch := []
  rhsBatch := []
  wf := dot_S131072x512_S512x512_S131072x512_1_0_0_1_n_n_wf

class Facts : Prop extends Facts₀ where

variable [Facts]
-- ==== Proof.Spec.lean ====
/-
  Soft assignment of points to cluster centres by a Student-t kernel, as a function on the extended reals.

  For a point `x` (a row of 512 coordinates) and a centre `c` the squared distance is taken by the expansion
  |x|² + |c|² − 2·⟨x, c⟩ and clamped below at zero; the kernel value is 1 / (1 + that); a point's assignment
  to centre `q` is its kernel value at `q` divided by the sum of its kernel values over the 512 centres.
  The centres' squared norms enter as a separate argument, so that one definition serves a program that is handed them
  precomputed and one that computes them itself.

  Also here: the two identities on the extended reals that make "divide by one" and "raise to the power one"
  disappear — `x / 1 = x` and `x ^ 1 = x` for EVERY extended real, the infinities included —, and the float
  pattern of 1.0 read as the number one.
-/
import Idealize.ShloMosaic.PureOps.Ideal
import Idealize.ShloMosaic.PureOps.IdealRules
import Idealize.ShloMosaic.Lib.ValueIdx

noncomputable section

open scoped BigOperators

namespace Cert.SoftAssign

open Idealize.ShloMosaic Idealize.ShloMosaic.ValueIdx

/-- The float pattern of 2.0, kept as its pattern: both programs scale the inner product by the same word. -/
abbrev two : EReal := Ideal.ofBits .f32 0x40000000#32

/-- |v|²: the sum of the squares of 512 coordinates. -/
def normSq (v : Fin 512 → EReal) : EReal := ∑ d : Fin 512, v d * v d

/-- ⟨u, v⟩ over 512 coordinates. -/
def inner (u v : Fin 512 → EReal) : EReal := ∑ d : Fin 512, u d * v d

/-- The squared distance from point `xr` to a centre `cr` of squared norm `cn`, by the expansion, clamped at zero. -/
def sqDist (xr : Fin 512 → EReal) (cn : EReal) (cr : Fin 512 → EReal) : EReal :=
  max (normSq xr + cn - two * inner xr cr) 0

/-- The Student-t kernel with one degree of freedom: 1 / (1 + squared distance). -/
def tKernel (xr : Fin 512 → EReal) (cn : EReal) (cr : Fin 512 → EReal) : EReal :=
  Ideal.div 1 (1 + sqDist xr cn cr)

/-- A point's assignment to centre `q`: its kernel value there over the sum of its kernel values at all centres. -/
def assignRow (xr : Fin 512 → EReal) (cn : Fin 512 → EReal) (c : Fin 512 → Fin 512 → EReal) (q : Fin 512) : EReal :=
  Ideal.div (tKernel xr (cn q) (c q)) (∑ k : Fin 512, tKernel xr (cn k) (c k))

/-- The whole table of assignments, 131072 points by 512 centres, from the points `X` and the centres `C`: entry
    (n, q) is point n's assignment to centre q, the centres' squared norms computed from `C`. -/
def assign (X : (⟨2, ![131072, 512]⟩ : Shape).Idx → EReal) (C : (⟨2, ![512, 512]⟩ : Shape).Idx → EReal) :
    (⟨2, ![131072, 512]⟩ : Shape).Idx → EReal :=
  fun i => assignRow (fun d => X (ix2 (i 0) d)) (fun k => normSq fun d => C (ix2 k d)) (fun k d => C (ix2 k d)) (i 1)

theorem assign_ix2 (X : (⟨2, ![131072, 512]⟩ : Shape).Idx → EReal) (C : (⟨2, ![512, 512]⟩ : Shape).Idx → EReal)
    (n : Fin 131072) (q : Fin 512) :
    assign X C (ix2 n q)
      = assignRow (fun d => X (ix2 n d)) (fun k => normSq fun d => C (ix2 k d)) (fun k d => C (ix2 k d)) q := rfl

/-! ## One, and dividing by it, and raising to it -/

/-- The f32 pattern of 1.0 is the number one. -/
theorem one_f32 : Ideal.ofBits .f32 0x3F800000#32 = 1 := IdealRules.sign_bit.ideal_onePat .f32

/-- Dividing by one changes no extended real: one is not zero and is its own inverse. -/
theorem div_one (x : EReal) : Ideal.div x 1 = x := by
  rw [Ideal.div, if_neg one_ne_zero, inv_one, mul_one]

/-- Raising to the power one changes no extended real: the infinities are fixed (the exponent is positive), and on
    the reals it is `Real.rpow_one`. -/
theorem pow_one (x : EReal) : Ideal.pow x 1 = x := by
  induction x using EReal.rec with
  | bot => rfl
  | top => rw [Ideal.pow_top, if_pos zero_lt_one]
  | coe r =>
    rw [← EReal.coe_one, Ideal.pow_coe_coe]
    exact congrArg _ (Real.rpow_one r)

end Cert.SoftAssign

end
-- ==== Proof.Payload.lean ====
/-
  One element of the kernel body's result, from the blocks the body loads.

  The body holds a block of 2048 points (rows of 512 coordinates), the 512 centres (as rows of 512 coordinates) and the
  row of the centres' squared norms. For row p and centre q it forms |x_p|² as a lane sum kept as a column and spread
  over the columns, adds the q-th squared norm (one row spread over the rows), subtracts twice the matrix product of the
  block with the transposed centres (at the ideal instance the sum over d of x_p,d · c_q,d — rounding the factors to
  bf16 changes nothing there), clamps at zero, takes 1 / (1 + ·), sums that over the row's 512 columns (again kept as a
  column and spread) and divides. Read at (p, q) this is the soft assignment of point p to centre q, with the squared
  norms taken from the loaded row.
-/
import proofs.«106043_j2405181686143_2_alg».proof.Proof.Gen.KernelIdeal.Skeleton
import proofs.«106043_j2405181686143_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.SoftAssign

/-- A scalar float constant at the ideal instance is its pattern's value. -/
theorem scalar_ofBits (b : BitVec 32) : Scalar.ofBits (F := Ideal) .f32 b = Ideal.ofBits .f32 b := rfl

/-- A sum over each row's 512 lanes, kept as a column [2048, 1] and spread over the 512 columns, reads at (p, q) the
    sum of row p. -/
theorem rowSum_spread (v : FVec Ideal S2048x512 .f32) (hφ : FKind.Formats .f32)
    (hacc : (0x00000000#32 : BitVec 32) = 0x00000000#32) (p : Fin 2048) (q : Fin 512) :
    broadcastTo S2048x512 (shapeCast S2048x1 (multiReduction .add [1] S2048 v 0x00000000#32 reduces_S2048x512_S2048 hφ hacc)
        shapeCasts_S2048_S2048x1) broadcasts_S2048x1_S2048x512 (ix2 p q)
      = ∑ d : Fin 512, v (ix2 p d) := by
  refine (broadcastTo_apply _ broadcasts_S2048x1_S2048x512 (ix2 p q) (ix2 p (0 : Fin 1)) fun a => ?_).trans ?_
  · match a with
    | ⟨0, _⟩ => show p.val = if (2048 : Nat) = 1 then 0 else p.val; rw [if_neg (by decide)]
    | ⟨1, _⟩ => show (0 : Nat) = if (1 : Nat) = 1 then 0 else q.val; rw [if_pos rfl]
  refine (shapeCast_apply _ shapeCasts_S2048_S2048x1 (ix2 p (0 : Fin 1)) (ix1 p) ?_).trans ?_
  · rw [Shape.rowMajor_val_one, Shape.rowMajor_val_two]
    show p.val = p.val * 1 + 0
    omega
  refine (Ideal.multiReduction_add_single v 0x00000000#32 reduces_S2048x512_S2048 hφ hacc (ix1 p)).trans ?_
  exact Finset.sum_congr rfl fun d _ =>
    congrArg v (funext fun a => Fin.ext (by match a with | ⟨0, _⟩ => rfl | ⟨1, _⟩ => rfl))

/-- The row of squared norms [1, 512], spread over the 2048 rows, reads at (p, q) its q-th entry. -/
theorem normRow_spread (x2 : Vec Ideal S1x512 .f32) (p : Fin 2048) (q : Fin 512) :
    broadcastTo S2048x512 (shapeCast S1x512 x2 shapeCasts_S1x512_S1x512) broadcasts_S1x512_S2048x512 (ix2 p q)
      = x2 (ix2 (0 : Fin 1) q) := by
  rw [shapeCast_self]
  exact broadcastTo_1b_ab_apply x2 broadcasts_S1x512_S2048x512 p q

/-! ### The matrix product's operand indices -/

theorem lhs_0 (i : S2048x512.Idx) (k : dot_S2048x512_S512x512_S2048x512_1_0_0_1_n_n.contr.Idx) : (dot_S2048x512_S512x512_S2048x512_1_0_0_1_n_n.lhsIdx i k 0).val = (i 0).val := by
  unfold DotDims.lhsIdx
  rw [dif_neg (show ¬(0 : Fin S2048x512.rank) ∈ dot_S2048x512_S512x512_S2048x512_1_0_0_1_n_n.lhsBatch by decide),
    dif_pos (show (0 : Fin S2048x512.rank) ∈ dot_S2048x512_S512x512_S2048x512_1_0_0_1_n_n.lhsNonContracting by decide)]
  rfl
theorem lhs_1 (i : S2048x512.Idx) (k : dot_S2048x512_S512x512_S2048x512_1_0_0_1_n_n.contr.Idx) : (dot_S2048x512_S512x512_S2048x512_1_0_0_1_n_n.lhsIdx i k 1).val = (k ⟨0, by decide⟩).val :=
  dot_S2048x512_S512x512_S2048x512_1_0_0_1_n_n.lhsIdx_val_of_single rfl i k
theorem rhs_0 (i : S2048x512.Idx) (k : dot_S2048x512_S512x512_S2048x512_1_0_0_1_n_n.contr.Idx) : (dot_S2048x512_S512x512_S2048x512_1_0_0_1_n_n.rhsIdx i k 0).val = (k ⟨0, by decide⟩).val :=
  dot_S2048x512_S512x512_S2048x512_1_0_0_1_n_n.rhsIdx_val_of_single rfl i k
theorem rhs_1 (i : S2048x512.Idx) (k : dot_S2048x512_S512x512_S2048x512_1_0_0_1_n_n.contr.Idx) : (dot_S2048x512_S512x512_S2048x512_1_0_0_1_n_n.rhsIdx i k 1).val = (i 1).val := by
  unfold DotDims.rhsIdx
  rw [dif_neg (show ¬(1 : Fin S512x512.rank) ∈ dot_S2048x512_S512x512_S2048x512_1_0_0_1_n_n.rhsBatch by decide),
    dif_pos (show (1 : Fin S512x512.rank) ∈ dot_S2048x512_S512x512_S2048x512_1_0_0_1_n_n.rhsNonContracting by decide)]
  rfl

/-- The block times the transposed centres, into a zero accumulator, reads at (p, q) the inner product of row p of
    the block and row q of the centres; the rounding of both factors to bf16 is the identity here. -/
theorem cross_apply (x0 : FVec Ideal S2048x512 .f32) (x1 : FVec Ideal S512x512 .bf16) (p : Fin 2048) (q : Fin 512) :
    matmul (F := Ideal) dot_S2048x512_S512x512_S2048x512_1_0_0_1_n_n none (truncf (F := Ideal) .bf16 x0 bitsLt_bf16_f32)
        (transpose S512x512 [1, 0] (shapeCast S512x512 x1 shapeCasts_S512x512_S512x512) transposes_S512x512_p1_0_S512x512)
        (constant (F := Ideal) S2048x512 .f32 0x00000000#32) (ix2 p q)
      = ∑ d : Fin 512, x0 (ix2 p d) * x1 (ix2 q d) := by
  rw [shapeCast_self]
  simp only [matmul]
  rw [Ideal.matmul_constant_zero_apply, ← Equiv.sum_comp (contrEquiv1 dot_S2048x512_S512x512_S2048x512_1_0_0_1_n_n 512 rfl rfl).symm]
  refine Finset.sum_congr rfl fun d _ => ?_
  have hd := contrEquiv1_symm_val dot_S2048x512_S512x512_S2048x512_1_0_0_1_n_n 512 rfl rfl d
  have el : dot_S2048x512_S512x512_S2048x512_1_0_0_1_n_n.lhsIdx (ix2 p q) ((contrEquiv1 dot_S2048x512_S512x512_S2048x512_1_0_0_1_n_n 512 rfl rfl).symm d) = ix2 p d :=
    funext fun a => Fin.ext (by
      match a with
      | ⟨0, _⟩ => exact lhs_0 _ _
      | ⟨1, _⟩ => exact (lhs_1 _ _).trans hd)
  have er : dot_S2048x512_S512x512_S2048x512_1_0_0_1_n_n.rhsIdx (ix2 p q) ((contrEquiv1 dot_S2048x512_S512x512_S2048x512_1_0_0_1_n_n 512 rfl rfl).symm d) = ix2 d q :=
    funext fun a => Fin.ext (by
      match a with
      | ⟨0, _⟩ => exact (rhs_0 _ _).trans hd
      | ⟨1, _⟩ => exact rhs_1 _ _)
  rw [el, er, truncf_apply, transpose_ix2_apply]

/-- A table of values divided by its row sums (each kept as a column and spread over the columns) reads at (p, q)
    the entry over the sum of row p — with the row's entries named by `f`. -/
theorem rowNormalised_apply (kv : FVec Ideal S2048x512 .f32) (hφ : FKind.Formats .f32)
    (hacc : (0x00000000#32 : BitVec 32) = 0x00000000#32) (p : Fin 2048) (q : Fin 512)
    (f : Fin 512 → EReal) (hf : ∀ k : Fin 512, kv (ix2 p k) = f k) :
    divf kv (broadcastTo S2048x512 (shapeCast S2048x1 (multiReduction .add [1] S2048 kv 0x00000000#32
        reduces_S2048x512_S2048 hφ hacc) shapeCasts_S2048_S2048x1) broadcasts_S2048x1_S2048x512) (ix2 p q)
      = Ideal.div (f q) (∑ k : Fin 512, f k) := by
  rw [divf_apply, rowSum_spread, hf q]
  exact congrArg (Ideal.div (f q)) (Finset.sum_congr rfl fun k _ => hf k)

/-- THE BODY'S RESULT at (p, q): the soft assignment of the block's point p to centre q, the centres' squared norms
    read from the loaded row. -/
theorem payload_apply (x0 : Vec Ideal S2048x512 .f32) (x1 : Vec Ideal S512x512 .bf16) (x2 : Vec Ideal S1x512 .f32)
    (p : Fin 2048) (q : Fin 512) :
    k0_pay1 (F := Ideal) x0 x1 x2 (ix2 p q)
      = assignRow (fun d => x0 (ix2 p d)) (fun k => x2 (ix2 (0 : Fin 1) k)) (fun k d => x1 (ix2 k d)) q := by
  unfold k0_pay1 assignRow
  refine rowNormalised_apply _ _ _ p q
    (fun k => tKernel (fun d => x0 (ix2 p d)) (x2 (ix2 (0 : Fin 1) k)) (fun d => x1 (ix2 k d))) (fun k => ?_)
  simp only [divf_apply, addf_apply, subf_apply, mulf_apply, maximumf_apply, broadcast_apply, scalar_ofBits]
  rw [rowSum_spread, normRow_spread, cross_apply]
  simp only [mulf_apply, one_f32, Ideal.ofBits_zero_f32]
  rfl

end Cert.KernelIdeal.Body

end
-- ==== Proof.ArrayValue.lean ====
/-
  The whole result array of the kernel's program, from its blocks.

  The grid has 64 points; point t stages rows 2048·t … 2048·t + 2047 of the points, all the centres (rounded to bf16 by
  the host, which changes nothing at the ideal instance) and the row of the centres' squared norms (summed by the host),
  and writes back rows 2048·t … of the result. So what point t writes back is block t of ONE table — the soft
  assignments of the two argument arrays —, the 64 row blocks cover the array, and the array ends holding that table.
-/
import proofs.«106043_j2405181686143_2_alg».proof.Proof.Gen.KernelIdeal.Value
import proofs.«106043_j2405181686143_2_alg».proof.Proof.Payload
import Idealize.ShloMosaic.Lib.StableHlo.Run

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx Cert.SoftAssign
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The block indices at every grid point: the points and the result move down one row block per point, the centres
    and their norms stay. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## What the host leaves for the region -/

/-- The centres as the region finds them: the host's rounding to bf16 is the identity here. -/
theorem centres_staged (c : Dev nD) :
    (V m c main_v3 : S512x512.Idx → EReal) = m ((c : Thread nD τ).loc main_arg1) := by
  dsimp only [Gen.V, Gen.hostOps0]; after_results; rfl

/-- The row of squared norms as the region finds it: the host's row sums of the squared centres, as a [1, 512] row. -/
theorem norms_staged (c : Dev nD) :
    (V m c main_v2 : S1x512.Idx → EReal)
      = broadcastInDim S1x512 ![1] bcast_S512_S1x512_1
          (Host.reduceAdd (F := Ideal) (mulf (m ((c : Thread nD τ).loc main_arg1)) (m ((c : Thread nD τ).loc main_arg1)))
            (constant (F := Ideal) S_ .f32 0x00000000#32) reducesTo_S512x512_S512_d1 h_S_) := by
  dsimp only [Gen.V, Gen.hostOps0]; after_results

/-- That row at k is the squared norm of centre k. -/
theorem normRow_apply (a1 : FVec Ideal S512x512 .f32) (k : Fin 512) :
    broadcastInDim S1x512 ![1] bcast_S512_S1x512_1
        (Host.reduceAdd (F := Ideal) (mulf a1 a1) (constant (F := Ideal) S_ .f32 0x00000000#32)
          reducesTo_S512x512_S512_d1 h_S_) (ix2 (0 : Fin 1) k)
      = normSq fun d => a1 (ix2 k d) := by
  refine (broadcastInDim_apply _ bcast_S512_S1x512_1 _ (ix2 (0 : Fin 1) k) (ix1 k) fun a => ?_).trans ?_
  · match a with
    | ⟨0, _⟩ => show k.val = if (512 : Nat) = 1 then 0 else k.val; rw [if_neg (by decide)]
  simp only [Host.reduceAdd, Ideal.hostReduceAdd_def]
  rw [Ideal.hostReduceAdd_single reducesTo_S512x512_S512_d1 (by decide)]
  show Ideal.ofBits .f32 0x00000000#32 + _ = _
  rw [Ideal.ofBits_zero_f32, zero_add]
  exact Finset.sum_congr rfl fun d _ =>
    congrArg (fun i => a1 i * a1 i) (funext fun a => Fin.ext (by match a with | ⟨0, _⟩ => rfl | ⟨1, _⟩ => rfl))

/-! ## The blocks at a point -/

/-- The points' block at point t, entry y, is the points' array at row 2048·t + y₀. -/
theorem points_read (c : Dev nD) (t : Fin cfg0.N) (y : S2048x512.Idx) (i : S131072x512.Idx)
    (h0 : (i 0).val = t.val * 2048 + (y 0).val) (h1 : (i 1).val = (y 1).val) :
    iblk m c 0 t y = m ((c : Thread nD τ).loc main_arg0) i := by
  obtain ⟨e0, e1, -⟩ := block_indices t
  have h : ((cfg0.win 0).blk t).view.emb y = i := funext fun a => Fin.ext (by
    match a with
    | ⟨0, _⟩ => show win0_0.index t (0 : Fin 2) * 2048 + 1 * (y 0).val = (i 0).val; omega
    | ⟨1, _⟩ => show win0_0.index t (1 : Fin 2) * 512 + 1 * (y 1).val = (i 1).val; omega)
  show V m c main_arg0 (((cfg0.win 0).blk t).view.emb y) = _
  rw [h, V_main_arg0]

/-- The centres' block at any point is the centres' array. -/
theorem centres_read (c : Dev nD) (t : Fin cfg0.N) (y : S512x512.Idx) :
    (iblk m c 1 t y : EReal) = m ((c : Thread nD τ).loc main_arg1) y := by
  obtain ⟨-, -, e0, e1, -⟩ := block_indices t
  have h : ((cfg0.win 1).blk t).view.emb y = y := funext fun a => Fin.ext (by
    match a with
    | ⟨0, _⟩ => show win0_1.index t (0 : Fin 2) * 512 + 1 * (y 0).val = (y 0).val; omega
    | ⟨1, _⟩ => show win0_1.index t (1 : Fin 2) * 512 + 1 * (y 1).val = (y 1).val; omega)
  show V m c main_v3 (((cfg0.win 1).blk t).view.emb y) = _
  rw [h, centres_staged]

/-- The norms' block at any point, at k, is the squared norm of centre k of the centres' array. -/
theorem norms_read (c : Dev nD) (t : Fin cfg0.N) (k : Fin 512) :
    (iblk m c 2 t (ix2 (0 : Fin 1) k) : EReal) = normSq fun d => m ((c : Thread nD τ).loc main_arg1) (ix2 k d) := by
  obtain ⟨-, -, -, -, e0, e1, -⟩ := block_indices t
  have h : ((cfg0.win 2).blk t).view.emb (ix2 (0 : Fin 1) k) = ix2 (0 : Fin 1) k := funext fun a => Fin.ext (by
    match a with
    | ⟨0, _⟩ => show win0_2.index t (0 : Fin 2) * 1 + 1 * 0 = 0; omega
    | ⟨1, _⟩ => show win0_2.index t (1 : Fin 2) * 512 + 1 * k.val = k.val; omega)
  show V m c main_v2 (((cfg0.win 2).blk t).view.emb (ix2 (0 : Fin 1) k)) = _
  rw [h, norms_staged]
  exact normRow_apply _ k

/-! ## One entry of a block of the result -/

/-- The body's result at an entry of its block is the table's entry at the array index the block entry sits at, when
    the loaded blocks are what the arrays hold there. -/
theorem block_entry (x0 : Vec Ideal S2048x512 .f32) (x1 : Vec Ideal S512x512 .bf16) (x2 : Vec Ideal S1x512 .f32)
    (X : (⟨2, ![131072, 512]⟩ : Shape).Idx → EReal) (C : (⟨2, ![512, 512]⟩ : Shape).Idx → EReal)
    (j : S2048x512.Idx) (i : (⟨2, ![131072, 512]⟩ : Shape).Idx)
    (hx : ∀ d : Fin 512, x0 (ix2 (j 0) d) = X (ix2 (i 0) d))
    (hc : ∀ k d : Fin 512, x1 (ix2 k d) = C (ix2 k d))
    (hn : ∀ k : Fin 512, x2 (ix2 (0 : Fin 1) k) = normSq fun d => C (ix2 k d))
    (hq : (j 1).val = (i 1).val) :
    k0_pay1 (F := Ideal) x0 x1 x2 j = assign X C i := by
  obtain ⟨p, q, rfl⟩ : ∃ (p : Fin 2048) (q : Fin 512), j = ix2 p q := ⟨j 0, j 1, eq_ix2 j⟩
  obtain ⟨n, q', rfl⟩ : ∃ (n : Fin 131072) (q' : Fin 512), i = ix2 n q' := ⟨i 0, i 1, eq_ix2 i⟩
  obtain rfl : q = q' := Fin.ext hq
  rw [Body.payload_apply, assign_ix2]
  have hx' : (fun d => x0 (ix2 p d)) = fun d => X (ix2 n d) := funext hx
  have hc' : (fun k d => x1 (ix2 k d)) = fun k d => C (ix2 k d) := funext fun k => funext (hc k)
  have hn' : (fun k => x2 (ix2 (0 : Fin 1) k)) = fun k => normSq fun d => C (ix2 k d) := funext hn
  rw [hx', hc', hn']

/-! ## From the blocks to the array -/

/-- WHAT POINT t WRITES BACK is block t of the table of soft assignments of the two argument arrays. -/
theorem flushed_eq (c : Dev nD) (t : Fin cfg0.N) :
    (dats m 0 c).flushed 3 t
      = ((cfg0.win 3).blk t).view.read (Elt Ideal)
          (assign (m ((c : Thread nD τ).loc main_arg0)) (m ((c : Thread nD τ).loc main_arg1))) := by
  rw [Value.flushed3]
  unfold out0_3
  rw [View.canon_unit_zero zero_offsets]
  simp only [View.ld_unit_zero (S := S2048x512) zero_offsets, View.ld_unit_zero (S := S512x512) zero_offsets,
    View.ld_unit_zero (S := S1x512) zero_offsets]
  obtain ⟨-, -, -, -, -, -, e0, e1⟩ := block_indices t
  funext j
  show k0_pay1 (F := Ideal) (iblk m c 0 t) (iblk m c 1 t) (iblk m c 2 t) j
    = assign (m ((c : Thread nD τ).loc main_arg0)) (m ((c : Thread nD τ).loc main_arg1)) (((cfg0.win 3).blk t).view.emb j)
  have r0 : ((((cfg0.win 3).blk t).view.emb j) 0).val = t.val * 2048 + (j 0).val := by
    show win0_3.index t (0 : Fin 2) * 2048 + 1 * (j 0).val = _
    omega
  have r1 : ((((cfg0.win 3).blk t).view.emb j) 1).val = (j 1).val := by
    show win0_3.index t (1 : Fin 2) * 512 + 1 * (j 1).val = _
    omega
  exact block_entry (iblk m c 0 t) (iblk m c 1 t) (iblk m c 2 t) (m ((c : Thread nD τ).loc main_arg0))
    (m ((c : Thread nD τ).loc main_arg1)) j (((cfg0.win 3).blk t).view.emb j)
    (fun d => points_read m c t (ix2 (j 0) d) (ix2 ((((cfg0.win 3).blk t).view.emb j) 0) d) r0 rfl)
    (fun k d => centres_read m c t (ix2 k d))
    (fun k => norms_read m c t k)
    r1.symm

/-- An index of the array is in point t's block iff each coordinate is in the block's range on its axis. -/
theorem mem_block (t : Fin cfg0.N) (i : S131072x512.Idx) :
    i ∈ ((cfg0.win 3).blk t).view.set ↔ ∀ a : Fin 2, win0_3.index t a * S2048x512.size a ≤ (i a).val
      ∧ (i a).val < win0_3.index t a * S2048x512.size a + S2048x512.size a := by
  show i ∈ ((View.whole main_v4).slice (win0_3.rect t)).set ↔ _
  rw [View.set_slice_whole, Rect.mem_set_unit]
  exact Iff.rfl

/-- Every row of the array lies in the block of the point its number divided by 2048 names. -/
theorem covered (i : S131072x512.Idx) :
    ∃ t : Fin cfg0.N, (cfg0.win 3).flush t = true ∧ i ∈ ((cfg0.win 3).blk t).view.set := by
  have hi0 : (i 0).val < 131072 := (i 0).isLt
  have hi1 : (i 1).val < 512 := (i 1).isLt
  have hN : cfg0.N = 64 := N_0
  have ht : (i 0).val / 2048 < cfg0.N := by rw [hN]; omega
  obtain ⟨-, -, -, -, -, -, e0, e1⟩ := block_indices ⟨(i 0).val / 2048, ht⟩
  refine ⟨⟨(i 0).val / 2048, ht⟩, flush0_3 _, ?_⟩
  rw [mem_block]
  intro a
  match a with
  | ⟨0, _⟩ =>
    show win0_3.index ⟨(i 0).val / 2048, ht⟩ (0 : Fin 2) * 2048 ≤ (i 0).val
      ∧ (i 0).val < win0_3.index ⟨(i 0).val / 2048, ht⟩ (0 : Fin 2) * 2048 + 2048
    rw [e0]
    show (i 0).val / 2048 * 2048 ≤ (i 0).val ∧ (i 0).val < (i 0).val / 2048 * 2048 + 2048
    omega
  | ⟨1, _⟩ =>
    show win0_3.index ⟨(i 0).val / 2048, ht⟩ (1 : Fin 2) * 512 ≤ (i 1).val
      ∧ (i 1).val < win0_3.index ⟨(i 0).val / 2048, ht⟩ (1 : Fin 2) * 512 + 512
    omega

/-- THE ARRAY after the run is the table of soft assignments of the two argument arrays. -/
theorem final (c : Dev nD) :
    (dats m 0 c).arrAt 3 cfg0.N
      = assign (m ((c : Thread nD τ).loc main_arg0)) (m ((c : Thread nD τ).loc main_arg1)) :=
  (dats m 0 c).arrAt_eq_of_cover 3 _ (fun t _ => flushed_eq m c t) covered

/-- The run, read: the result array ends at the table, the arguments unchanged. -/
theorem run : θ_run defs (onTc (τ := τ) (main (F := Ideal))) ⟨m, fun _ => 0, ρ⟩ fun r => ∀ c : Dev nD,
      r.2.mem ((c : Thread nD τ).loc main_v4)
        = assign (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.RefValue.lean ====
/-
  The reference's result, read index by index, is the table of soft assignments.

  The reference computes, for point n and centre k, the clamped squared distance by the expansion, divides it by 1.0,
  adds one, takes the reciprocal, raises that to the power 1.0, and divides by the row's sum. Dividing by one and
  raising to the power one change nothing on the extended reals, so entry (n, k) is the Student-t kernel value, and
  entry (n, q) of the result is that value at q over the sum of the row's values.
-/
import proofs.«106043_j2405181686143_2_alg».proof.Proof.Gen.ReferenceIdeal.Read
import proofs.«106043_j2405181686143_2_alg».proof.Proof.Spec

noncomputable section

open scoped BigOperators

namespace Cert.ReferenceIdeal.RefValue

open Cert.ReferenceIdeal Cert.ReferenceIdeal.Read Idealize.ShloMosaic Idealize.ShloMosaic.ValueIdx Cert.SoftAssign

/-- The row of a point's squares that the reference sums for entry (n, k) is point n's row. -/
theorem idx_point (n : Fin 131072) (k d : Fin 512) :
    idx_main_v1 (idx_main_v2 (idx_main_v6 (ix2 n k))) d = ix2 n d :=
  funext fun a => Fin.ext (by match a with | ⟨0, _⟩ => rfl | ⟨1, _⟩ => rfl)

/-- The row of a centre's squares that the reference sums for entry (n, k) is centre k's row. -/
theorem idx_centre (n : Fin 131072) (k d : Fin 512) :
    idx_main_v4 (idx_main_v5 (idx_main_v7 (ix2 n k))) d = ix2 k d :=
  funext fun a => Fin.ext (by match a with | ⟨0, _⟩ => rfl | ⟨1, _⟩ => rfl)

/-- The inner product's left factor for entry (n, k) runs over point n's row, -/
theorem idx_lhs (n : Fin 131072) (k d : Fin 512) : lidx_main_v10 (ix2 n k) d = ix2 n d :=
  funext fun a => Fin.ext (by match a with | ⟨0, _⟩ => rfl | ⟨1, _⟩ => rfl)

/-- and its right factor, through the transpose, over centre k's row. -/
theorem idx_rhs (n : Fin 131072) (k d : Fin 512) : idx_main_v9 (ridx_main_v10 (ix2 n k) d) = ix2 k d :=
  funext fun a => Fin.ext (by match a with | ⟨0, _⟩ => rfl | ⟨1, _⟩ => rfl)

/-- The row the reference sums for the normaliser of entry (n, q) is row n of the kernel values. -/
theorem idx_rowsum (n : Fin 131072) (q k : Fin 512) :
    idx_main_v24 (idx_main_v25 (idx_main_v26 (ix2 n q))) k = ix2 n k :=
  funext fun a => Fin.ext (by match a with | ⟨0, _⟩ => rfl | ⟨1, _⟩ => rfl)

/-- Entry (n, k) before normalising is the Student-t kernel of point n and centre k: the division by 1.0 and the power
    1.0 are the identity. -/
theorem kernel_apply (x0 : (⟨S131072x512, .f32⟩ : BufTy).Contents (Elt Ideal)) (x1 : (⟨S512x512, .f32⟩ : BufTy).Contents (Elt Ideal))
    (n : Fin 131072) (k : Fin 512) :
    val_main_v23 (F := Ideal) x0 x1 (ix2 n k)
      = tKernel (fun d => x0 (ix2 n d)) (normSq fun d => x1 (ix2 k d)) (fun d => x1 (ix2 k d)) := by
  rw [val_main_v23_apply, val_main_v22_apply, val_main_cst_6_apply, val_main_v21_apply, val_main_v20_apply,
    val_main_cst_5_apply, val_main_v19_apply, val_main_v18_apply, val_main_cst_4_apply, val_main_v17_apply,
    val_main_v16_apply, val_main_cst_3_apply, val_main_v15_apply, val_main_v14_apply, val_main_cst_2_apply,
    val_main_v13_apply, val_main_v8_apply, val_main_v6_apply, val_main_v2_apply, val_main_v1_apply, val_main_cst_apply,
    val_main_v7_apply, val_main_v5_apply, val_main_v4_apply, val_main_cst_0_apply, val_main_v12_apply,
    val_main_v11_apply, val_main_cst_1_apply, val_main_v10_apply]
  simp only [val_main_v0_apply, val_main_v3_apply, val_main_v9_apply, idx_point, idx_centre, idx_lhs, idx_rhs,
    Ideal.hostPowf_def, Ideal.hostDivf_def, Ideal.addf_def, Ideal.subf_def, Ideal.mulf_def, Ideal.maximumf_def,
    Ideal.ofBits_def, one_f32, Ideal.ofBits_zero_f32, zero_add, div_one, pow_one]
  rfl

/-- The reference's result is the table of soft assignments of its two arguments. -/
theorem result_eq (x0 : (⟨S131072x512, .f32⟩ : BufTy).Contents (Elt Ideal)) (x1 : (⟨S512x512, .f32⟩ : BufTy).Contents (Elt Ideal)) :
    val_main_v27 (F := Ideal) x0 x1 = assign x0 x1 := by
  funext i
  obtain ⟨n, q, rfl⟩ : ∃ (n : Fin 131072) (q : Fin 512), i = ix2 n q := ⟨i 0, i 1, eq_ix2 i⟩
  rw [val_main_v27_apply, val_main_v26_apply, val_main_v25_apply, val_main_v24_apply, val_main_cst_7_apply, assign_ix2]
  simp only [idx_rowsum, kernel_apply, Ideal.hostDivf_def, Ideal.ofBits_def, Ideal.ofBits_zero_f32, zero_add]
  rfl

end Cert.ReferenceIdeal.RefValue

end
-- ==== Proof.lean ====
/-
  The kernel's program and the reference compute one table: the soft assignment of 131072 points to 512 cluster centres
  by a Student-t kernel with one degree of freedom.

  For point n and centre k both take the squared distance by the expansion |x_n|² + |c_k|² − 2·⟨x_n, c_k⟩, clamp it at
  zero, form 1 / (1 + ·), and divide by the sum of that over the 512 centres (Proof/Spec.lean states the table as one
  function of the two argument arrays on the extended reals). The kernel's program has the host sum the centres'
  squared norms once and round the centres to bf16 (the identity on the extended reals), and computes the table in 64
  row blocks of 2048 points, the inner products by one matrix product per block (Proof/Payload.lean: one element of a
  block; Proof/ArrayValue.lean: the blocks tile the array). The reference computes the same expression on whole arrays
  and in addition divides the squared distance by 1.0 and raises the kernel value to the power 1.0
  (Proof/RefValue.lean): on the extended reals x / 1 = x and x ^ 1 = x for every x, the infinities included, so nothing
  changes. Every sum is the same sum of the same terms on both sides, in the same grouping, so the two results are equal
  term by term and the precondition (finite inputs) is never opened.

  The three frames: the two kernel programs' by their generated frame certificates; the reference's by its generated
  run with the result dropped. The idealization rewrote no operation, so there is nothing to preserve.
-/
import proofs.«106043_j2405181686143_2_alg».proof.Defs
import proofs.«106043_j2405181686143_2_alg».proof.Proof.Gen.Kernel
import proofs.«106043_j2405181686143_2_alg».proof.Proof.Gen.Kernel.Frame
import proofs.«106043_j2405181686143_2_alg».proof.Proof.Gen.KernelIdeal
import proofs.«106043_j2405181686143_2_alg».proof.Proof.Gen.KernelIdeal.Frame
import proofs.«106043_j2405181686143_2_alg».proof.Proof.Gen.KernelIdeal.Value
import proofs.«106043_j2405181686143_2_alg».proof.Proof.Gen.ReferenceIdeal
import proofs.«106043_j2405181686143_2_alg».proof.Proof.Gen.ReferenceIdeal.Run
import proofs.«106043_j2405181686143_2_alg».proof.Proof.Gen.ReferenceIdeal.Read
import proofs.«106043_j2405181686143_2_alg».proof.Proof.Gen.Pre_finite_inputs
import proofs.«106043_j2405181686143_2_alg».proof.Proof.ArrayValue
import proofs.«106043_j2405181686143_2_alg».proof.Proof.RefValue
import Idealize.ShloMosaic.Adequacy
import Idealize.ShloMosaic.Init

noncomputable section

namespace Cert.Proof

open Idealize.ShloMosaic Idealize.ShloMosaic.TcCoe Idealize.SL.Sem

/-- The kernel's program as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments alone: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the table of soft assignments of arguments that agree. -/
theorem algebraic : Cert.algebraic_KernelIdeal_ReferenceIdeal := by
  intro m ρ m' ρ' _ hagree
  refine ⟨fun c => Cert.SoftAssign.assign (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
